-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S96 .f32) (main_arg6 : FVec F S96x40 .f32) (main_arg7 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg5
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x40 .f32 := Host.absf main_arg6
  let main_cst_8 : FVec F S_ .f32 := constant S_ .f32 0x7F800000#32
  let main_v25 : FVec F S96x40 .f32 := broadcastInDim S96x40 ![] bcast_S_S96x40 main_cst_8
  let main_v26 : IVec S96x40 1 := cmpf .olt main_v24 main_v25
  let main_c_9 : IVec S_ 1 := constantI S_ 1 1#1
  let main_v27 : IVec S_ 1 := (fun x v => Host.reduce IntOp.andi x v reducesTo_S96x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x96 .f32) (main_arg3 : FVec F S96 .f32) (main_arg4 : FVec F S96x96 .f32) (main_arg5 : FVec F S96 .f32) (main_arg6 : FVec F S96x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg4
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S50000x40 : Shape := ⟨2, ![50000, 40]⟩
abbrev S5000x40 : Shape := ⟨2, ![5000, 40]⟩
abbrev S1x40 : Shape := ⟨2, ![1, 40]⟩

abbrev nBuf : Space → Nat
  | .hbm => 98
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x96, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x96, .f32⟩
  | .hbm, ⟨58, _⟩ => ⟨S850000x1, .f32⟩
  | .hbm, ⟨59, _⟩ => ⟨S850000x96, .f32⟩
  | .hbm, ⟨60, _⟩ => ⟨S850000x96, .f32⟩
  | .hbm, ⟨61, _⟩ => ⟨S_, .f32⟩
  | .hbm, ⟨62, _⟩ => ⟨S50000x96, .f32⟩
  | .hbm, ⟨63, _⟩ => ⟨S850000x1, .i32⟩
  | .hbm, ⟨64, _⟩ => ⟨S50000x96, .f32⟩
  | .hbm, ⟨65, _⟩ => ⟨S1x96, .f32⟩
  | .hbm, ⟨66, _⟩ => ⟨S50000x96, .f32⟩
  | .hbm, ⟨67, _⟩ => ⟨S50000x96, .f32⟩
  | .hbm, ⟨68, _⟩ => ⟨S_, .f32⟩
  | .hbm, ⟨69, _⟩ => ⟨S50000x96, .f32⟩
  | .hbm, ⟨70, _⟩ => ⟨S50000x96, .f32⟩
  | .hbm, ⟨71, _⟩ => ⟨S50000x96, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x96, .f32⟩
  | .hbm, ⟨81, _⟩ => ⟨S850000x1, .f32⟩
  | .hbm, ⟨82, _⟩ => ⟨S850000x96, .f32⟩
  | .hbm, ⟨83, _⟩ => ⟨S850000x96, .f32⟩
  | .hbm, ⟨84, _⟩ => ⟨S_, .f32⟩
  | .hbm, ⟨85, _⟩ => ⟨S50000x96, .f32⟩
  | .hbm, ⟨86, _⟩ => ⟨S850000x1, .i32⟩
  | .hbm, ⟨87, _⟩ => ⟨S50000x96, .f32⟩
  | .hbm, ⟨88, _⟩ => ⟨S1x96, .f32⟩
  | .hbm, ⟨89, _⟩ => ⟨S50000x96, .f32⟩
  | .hbm, ⟨90, _⟩ => ⟨S50000x96, .f32⟩
  | .hbm, ⟨91, _⟩ => ⟨S_, .f32⟩
  | .hbm, ⟨92, _⟩ => ⟨S50000x96, .f32⟩
  | .hbm, ⟨93, _⟩ => ⟨S50000x96, .f32⟩
  | .hbm, ⟨94, _⟩ => ⟨S50000x40, .f32⟩
  | .hbm, ⟨95, _⟩ => ⟨S1x40, .f32⟩
  | .hbm, ⟨96, _⟩ => ⟨S50000x40, .f32⟩
  | .hbm, ⟨97, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x40, .f32⟩
  | .local _ .vmem, ⟨13, _⟩ => ⟨S5000x40, .f32⟩
  | .local _ .vmem, ⟨14, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  inb_S96x40_S96x40_0_0 : ∀ a, (![0, 0] : Fin 2 → Nat) a + S96x40.size a ≤ S96x40.size a
  h_S96x40 : 0 < S96x40.numel
  inb_S5000x40_S5000x40_0_0 : ∀ a, (![0, 0] : Fin 2 → Nat) a + S5000x40.size a ≤ S5000x40.size a
  h_S5000x40 : 0 < S5000x40.numel
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  dot_S5000x96_S96x40_S5000x40_1_0_0_1_n_n_wf : DotDims.WF S5000x96 S96x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x96.size a ≤ S96x96.size a
  hwx1_1 : ∀ i : grid1.Coords, EltTy.bits .f32 = 32 ∨ (Rect.block (s := S96x96) S96x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x40.size a ≤ S96x40.size a
  hwx2_1 : ∀ i : grid2.Coords, EltTy.bits .f32 = 32 ∨ (Rect.block (s := S96x40) S96x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S96x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x40 : Shape := ⟨2, ![50000, 40]⟩
abbrev S1x40 : Shape := ⟨2, ![1, 40]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x96, .f32⟩
  | .hbm, ⟨5, _⟩ => ⟨S96, .f32⟩
  | .hbm, ⟨6, _⟩ => ⟨S96x40, .f32⟩
  | .hbm, ⟨7, _⟩ => ⟨S40, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x96, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x96, .f32⟩
  | .hbm, ⟨58, _⟩ => ⟨S850000x1, .f32⟩
  | .hbm, ⟨59, _⟩ => ⟨S850000x96, .f32⟩
  | .hbm, ⟨60, _⟩ => ⟨S850000x96, .f32⟩
  | .hbm, ⟨61, _⟩ => ⟨S_, .f32⟩
  | .hbm, ⟨62, _⟩ => ⟨S50000x96, .f32⟩
  | .hbm, ⟨63, _⟩ => ⟨S850000x1, .i32⟩
  | .hbm, ⟨64, _⟩ => ⟨S50000x96, .f32⟩
  | .hbm, ⟨65, _⟩ => ⟨S1x96, .f32⟩
  | .hbm, ⟨66, _⟩ => ⟨S50000x96, .f32⟩
  | .hbm, ⟨67, _⟩ => ⟨S50000x96, .f32⟩
  | .hbm, ⟨68, _⟩ => ⟨S_, .f32⟩
  | .hbm, ⟨69, _⟩ => ⟨S50000x96, .f32⟩
  | .hbm, ⟨70, _⟩ => ⟨S50000x96, .f32⟩
  | .hbm, ⟨71, _⟩ => ⟨S50000x96, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x96, .f32⟩
  | .hbm, ⟨81, _⟩ => ⟨S850000x1, .f32⟩
  | .hbm, ⟨82, _⟩ => ⟨S850000x96, .f32⟩
  | .hbm, ⟨83, _⟩ => ⟨S850000x96, .f32⟩
  | .hbm, ⟨84, _⟩ => ⟨S_, .f32⟩
  | .hbm, ⟨85, _⟩ => ⟨S50000x96, .f32⟩
  | .hbm, ⟨86, _⟩ => ⟨S850000x1, .i32⟩
  | .hbm, ⟨87, _⟩ => ⟨S50000x96, .f32⟩
  | .hbm, ⟨88, _⟩ => ⟨S1x96, .f32⟩
  | .hbm, ⟨89, _⟩ => ⟨S50000x96, .f32⟩
  | .hbm, ⟨90, _⟩ => ⟨S50000x96, .f32⟩
  | .hbm, ⟨91, _⟩ => ⟨S_, .f32⟩
  | .hbm, ⟨92, _⟩ => ⟨S50000x96, .f32⟩
  | .hbm, ⟨93, _⟩ => ⟨S50000x96, .f32⟩
  | .hbm, ⟨94, _⟩ => ⟨S50000x40, .f32⟩
  | .hbm, ⟨95, _⟩ => ⟨S1x40, .f32⟩
  | .hbm, ⟨96, _⟩ => ⟨S50000x40, .f32⟩
  | .hbm, ⟨97, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.Model.lean ====
/-
  The graph-convolution network both programs compute, as one function of the eight arguments.

  Nodes are numbered 0 … 49999 and there are 800000 edges; every node also gets a self-loop, so a layer sends 850000
  messages. With `src` and `dst` the messages' end points, `deg` the number of messages arriving at a node and
  `dinv = deg^(-1/2)` (0 where nothing arrives), a layer takes node features `h` to

      relu ( Σ_{messages e into a node} (h W)[src e] · dinv[src e] · dinv[dst e]  +  b ),

  and the network is two such layers followed by a dense layer, `h Wout + bout`. Everything around the three matrix
  products is the same text in the two programs; it is written here once, over the reference's dimension records,
  so that neither side has to open a gather or a scatter: the two programs differ only in how `h W` is computed.
-/
import proofs.«148496_j54855322304748_1_alg».proof.ReferenceIdeal

noncomputable section

namespace Cert.Gcn

open Idealize.ShloMosaic Cert.ReferenceIdeal

variable {F : FTy → Type} [FloatOps F] [Facts₀]

open Facts₀

/-- The messages' source nodes: row 0 of the edge list, then the self-loops 0, 1, …, 49999. -/
def srcIds (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The messages' target nodes: row 1 of the edge list, then the self-loops. -/
def dstIds (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- An index list as a gather reads it: a negative id counts from the end (id + 50000), laid out as a column. -/
def wrapped (ids : (⟨S850000, .i32⟩ : BufTy).Contents (Elt F)) : (⟨S850000x1, .i32⟩ : BufTy).Contents (Elt F) :=
  broadcastInDim S850000x1 ![0] bcast_S850000_S850000x1_0 (select (cmpi .slt ids (broadcastInDim S850000 ![] bcast_S_S850000 (constantI S_ 32 0#32))) (addi ids (broadcastInDim S850000 ![] bcast_S_S850000 (constantI S_ 32 50000#32))) ids)

/-- The number of messages arriving at each node: ones summed by target. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- `deg^(-1/2)` where a node has a message, 0 where it has none. -/
def invSqrtDegree (dst : (⟨S850000, .i32⟩ : BufTy).Contents (Elt F)) : (⟨S50000, .f32⟩ : BufTy).Contents (Elt F) :=
  select (cmpf (F := F) .ogt (degree dst) (broadcastInDim S50000 ![] bcast_S_S50000 (constant S_ .f32 0x00000000#32))) (Host.rsqrt (degree dst)) (broadcastInDim S50000 ![] bcast_S_S50000 (id (constant S_ .f32 0x00000000#32)))

/-- A message's weight: the product of the two end points' `deg^(-1/2)`. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDegree dst) (wrapped src)) (Host.gather gather_S50000_S850000x1_S850000_n_0_n_n_0_1_1 (invSqrtDegree dst) (wrapped dst))

/-- What a layer does with the transformed features `hW`: gather each message's source row, scale it by the message's
    weight, sum the messages by target, add the bias, clip at zero. -/
def aggregate (hW : (⟨S50000x96, .f32⟩ : BufTy).Contents (Elt F)) (src dst : (⟨S850000, .i32⟩ : BufTy).Contents (Elt F))
    (w : (⟨S850000, .f32⟩ : BufTy).Contents (Elt F)) (b : (⟨S96, .f32⟩ : BufTy).Contents (Elt F)) : (⟨S50000x96, .f32⟩ : BufTy).Contents (Elt F) :=
  maximumf (addf (Host.scatterAdd scatter_S50000x96_S850000x1_S850000x96_1_0_0_1 (broadcastInDim S50000x96 ![] bcast_S_S50000x96 (constant S_ .f32 0x00000000#32)) (broadcastInDim S850000x1 ![0] bcast_S850000_S850000x1_0 dst) (mulf (Host.gather gather_S50000x96_S850000x1_S850000x96_1_0_n_n_0_1_196 hW (wrapped src)) (broadcastInDim S850000x96 ![0, 1] bcast_S850000x1_S850000x96_0_1 (broadcastInDim S850000x1 ![0] bcast_S850000_S850000x1_0 w)))) (broadcastInDim S50000x96 ![0, 1] bcast_S1x96_S50000x96_0_1 (broadcastInDim S1x96 ![1] bcast_S96_S1x96_1 b))) (broadcastInDim S50000x96 ![] bcast_S_S50000x96 (constant S_ .f32 0x00000000#32))

/-- The output layer's bias added to every row. -/
def addBias (hW : (⟨S50000x40, .f32⟩ : BufTy).Contents (Elt F)) (b : (⟨S40, .f32⟩ : BufTy).Contents (Elt F)) : (⟨S50000x40, .f32⟩ : BufTy).Contents (Elt F) :=
  addf hW (broadcastInDim S50000x40 ![0, 1] bcast_S1x40_S50000x40_0_1 (broadcastInDim S1x40 ![1] bcast_S40_S1x40_1 b))

/-- The network: two graph-convolution layers and a dense layer, every `h W` the host's matrix product. -/
def network (x : (⟨S50000x128, .f32⟩ : BufTy).Contents (Elt F)) (e : (⟨S2x800000, .i32⟩ : BufTy).Contents (Elt F))
    (W1 : (⟨S128x96, .f32⟩ : BufTy).Contents (Elt F)) (b1 : (⟨S96, .f32⟩ : BufTy).Contents (Elt F))
    (W2 : (⟨S96x96, .f32⟩ : BufTy).Contents (Elt F)) (b2 : (⟨S96, .f32⟩ : BufTy).Contents (Elt F))
    (Wo : (⟨S96x40, .f32⟩ : BufTy).Contents (Elt F)) (bo : (⟨S40, .f32⟩ : BufTy).Contents (Elt F)) : (⟨S50000x40, .f32⟩ : BufTy).Contents (Elt F) :=
  addBias (Host.dotGeneral dot_S50000x96_S96x40_S50000x40_1_0_0_1_n_n none
    (aggregate (Host.dotGeneral dot_S50000x96_S96x96_S50000x96_1_0_0_1_n_n none
      (aggregate (Host.dotGeneral dot_S50000x128_S128x96_S50000x96_1_0_0_1_n_n none x W1) (srcIds e) (dstIds e) (edgeWeight (srcIds e) (dstIds e)) b1)
      W2) (srcIds e) (dstIds e) (edgeWeight (srcIds e) (dstIds e)) b2)
    Wo) bo

end Cert.Gcn

end
-- ==== Proof.RefValue.lean ====
/-
  The reference's result is the network applied to the arguments.

  The reference's run ends with its result buffer at the composed term of its ninety host operations over the
  arguments. That term is the network's definition with every shared value (the messages' end points, their weights)
  written out at each use: unfolding the definition gives it back symbol for symbol.
-/
import proofs.«148496_j54855322304748_1_alg».proof.Proof.RefRun
import proofs.«148496_j54855322304748_1_alg».proof.Proof.Model

noncomputable section

open Idealize.ShloMosaic Idealize.ShloMosaic.TcCoe Idealize.SL.Sem

namespace Cert.ReferenceIdeal.RefValue

open Cert.ReferenceIdeal Cert.ReferenceIdeal.Gen Cert.ReferenceIdeal.ValueP

variable {F : FTy → Type} [FloatOps F]

set_option maxRecDepth 8192 in
/-- The run's composed term is the network of the launch contents of the eight arguments. -/
theorem result_eq (m : (ℓ : Loc nD τ sig) → Buf (Elt F) ℓ) (c : Dev nD) :
    res_main_v69 m c = Cert.Gcn.network (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold res_main_v69 Cert.Gcn.network Cert.Gcn.addBias Cert.Gcn.aggregate Cert.Gcn.edgeWeight Cert.Gcn.invSqrtDegree Cert.Gcn.degree
    Cert.Gcn.wrapped Cert.Gcn.srcIds Cert.Gcn.dstIds
  rfl

end Cert.ReferenceIdeal.RefValue

end
-- ==== Proof.KernelRun.lean ====
/-
  The kernel program's run, with every buffer's final contents named.

  @main is a chain of segments: a stretch of host operations takes the unscoped buffers from one set of contents to the
  next, a region replaces its arrays by what its pipeline's write-backs leave. Folding the segments from the launch
  memory gives the contents at the return; every weakly fair execution terminates, without a fault, with every
  unscoped TensorCore buffer at those contents — the result buffer among them, which a frame statement about the
  arguments alone does not mention.
-/
import proofs.«148496_j54855322304748_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    unscoped TensorCore buffer of every core ends at the last boundary's contents: the fold of the eleven segments
    from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The same run read at the result buffer and at the eight arguments: the result at the fold's contents, the
    arguments as launched. -/
theorem run_result : θ_run defs (onTc (τ := τ) (main (F := F))) ⟨m, fun _ => 0, ρ⟩ (fun r => ∀ c : Dev nD,
      r.2.mem ((c.tc : Thread nD τ).loc main_v69) = W11 m ρ c (Proc.devRef .tc main_v69)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v69 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)
    (run_all m ρ)

end Cert.KernelIdeal.Named

end
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.LibMatmulRows.lean ====
/-
  A product of a block of rows against the product of the whole table.

  A dense product is computed row by row: entry (p, q) of x · W depends on row p of x alone. So when a block x₀ of
  consecutive rows of a table X is multiplied by the same matrix W, row p of the block's product is the row of
  X · W that row p of the block came from. A change of float format on the way into the product is the identity
  over the extended reals, and the kernel's accumulator starts at zero.
-/
import proofs.«148496_j54855322304748_1_alg».proof.Proof.LibPlainMatmul

noncomputable section

open scoped BigOperators

namespace Cert.MatmulRows

open Idealize.ShloMosaic Idealize.ShloMosaic.ValueIdx Cert.PlainMatmul

/-- Entry (p, q) of the block's product, formats narrowed on the way in and accumulated from zero, is entry (P, q)
    of the table's host product, when row p of the block is row P of the table and the right factors agree. -/
theorem block_entry {b M K N : Nat} (x₀ : FVec Ideal ⟨2, ![b, K]⟩ .f32) (w₀ : FVec Ideal ⟨2, ![K, N]⟩ .f32)
    (X : FVec Ideal ⟨2, ![M, K]⟩ .f32) (W : FVec Ideal ⟨2, ![K, N]⟩ .f32)
    (hx : (FTy.bf16).bits < (FTy.f32).bits) (hw' : (FTy.bf16).bits < (FTy.f32).bits)
    (p : Fin b) (P : Fin M) (q : Fin N)
    (hrow : ∀ k : Fin K, x₀ (ix2 p k) = X (ix2 P k)) (hw : w₀ = W) :
    matmul (DotDims.plain b K N) none (truncf .bf16 x₀ hx) (truncf .bf16 w₀ hw')
        (constant (F := Ideal) ⟨2, ![b, N]⟩ .f32 0x00000000#32) (ix2 p q)
      = Host.dotGeneral (DotDims.plain M K N) none X W (ix2 P q) := by
  subst hw
  rw [matmul_zero_apply, dotGeneral_apply]
  exact Finset.sum_congr rfl fun k _ => by rw [truncf_apply, truncf_apply, hrow k]

end Cert.MatmulRows

end
-- ==== Proof.Tiles0.lean ====
/-
  Region 0: the rows of a matrix product, ten tiles of 5000 rows.

  The pallas_call's grid has ten points. Point t loads rows 5000·t … 5000·t + 4999 of the left factor (a table of 50000
  rows and 128 columns) and the whole right factor (128 × 96), narrows both to bf16 — the identity over the extended
  reals —, multiplies them into a zero accumulator and writes the 5000 × 96 product back as rows 5000·t … of the result.
  A row of a product depends on the same row of the left factor only, so row p of tile t is row 5000·t + p of the product
  of the whole table, and the ten tiles cover the 50000 rows: after the region the result array holds the host's
  matrix product of the two arrays as the region found them.
-/
import proofs.«148496_j54855322304748_1_alg».proof.Proof.Gen.KernelIdeal.Frame
import proofs.«148496_j54855322304748_1_alg».proof.Proof.LibMatmulRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole table by the right factor, as the host computes it. -/
abbrev whole (X : FVec Ideal S50000x128 .f32) (W : FVec Ideal S128x96 .f32) : FVec Ideal S50000x96 .f32 :=
  Host.dotGeneral (DotDims.plain 50000 128 96) none X W

/-- Entry (p, q) of what the body stores is entry (P, q) of the whole product, when row p of the loaded left block is
    row P of the table and the loaded right block is the whole right factor. -/
theorem stored_entry (x0 : Vec Ideal S5000x128 .f32) (x1 : Vec Ideal S128x96 .f32)
    (X : FVec Ideal S50000x128 .f32) (W : FVec Ideal S128x96 .f32) (p : Fin 5000) (P : Fin 50000) (q : Fin 96)
    (hrow : ∀ k : Fin 128, x0 (ix2 p k) = X (ix2 P k)) (hw : x1 = W) :
    k0_pay1 x0 x1 (ix2 p q) = whole X W (ix2 P q) := by
  unfold k0_pay1
  exact Cert.MatmulRows.block_entry x0 x1 X W bitsLt_bf16_f32 bitsLt_bf16_f32 p P q hrow hw

/-- The printed index maps over the grid: the left factor's and the result's block row is the point's number, every other
    block index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- Entry (p, k) of the left factor's block at point t is entry (5000·t + p, k) of its array. -/
theorem left_block (c : Dev nD) (t : Fin cfg0.N) (p : Fin 5000) (k : Fin 128) (P : Fin 50000) (hP : P.val = 5000 * t.val + p.val) :
    (iblk0 V c 0 t : Vec Ideal S5000x128 .f32) (ix2 p k) = (V c main_arg0 : S50000x128.Idx → Elt Ideal .f32) (ix2 P k) := by
  obtain ⟨e0, e1, -, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t 0 * 5000 + 1 * p.val = P.val; rw [e0, hP]; omega
  | ⟨1, _⟩ => show win0_0.index t 1 * 128 + 1 * k.val = k.val; rw [e1]; omega

/-- The right factor's block at every point is its whole array. -/
theorem right_block (c : Dev nD) (t : Fin cfg0.N) :
    (iblk0 V c 1 t : Vec Ideal S128x96 .f32) = (V c main_arg2 : S128x96.Idx → Elt Ideal .f32) := by
  obtain ⟨-, -, e2, e3, -, -, -⟩ := idx_facts t
  unfold iblk0
  funext y
  rw [View.read_apply]
  show V c main_arg2 _ = V c main_arg2 _
  refine congrArg (V c main_arg2) ?_
  funext a
  apply Fin.ext
  match a with
  | ⟨0, _⟩ => show win0_1.index t 0 * 128 + 1 * (y 0).val = (y 0).val; rw [e2]; omega
  | ⟨1, _⟩ => show win0_1.index t 1 * 96 + 1 * (y 1).val = (y 1).val; rw [e3]; omega

/-- WHAT POINT t WRITES BACK is block t of the whole product of the arrays as the region finds them. -/
theorem flushed_eq (c : Dev nD) (t : Fin cfg0.N) :
    (dat0 V c).flushed 2 t = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x96) hz]
  obtain ⟨-, -, -, -, e4, e5, hlt⟩ := idx_facts t
  funext j
  obtain ⟨p, q, rfl⟩ : ∃ (p : Fin 5000) (q : Fin 96), j = ix2 p q := ⟨j 0, j 1, eq_ix2 j⟩
  have hPlt : 5000 * t.val + p.val < 50000 := by have := p.isLt; omega
  refine (stored_entry (iblk0 V c 0 t) (iblk0 V c 1 t) (V c main_arg0) (V c main_arg2) p ⟨5000 * t.val + p.val, hPlt⟩ q
    (fun k => left_block V c t p k ⟨5000 * t.val + p.val, hPlt⟩ rfl) (right_block V c t)).trans ?_
  show whole (V c main_arg0) (V c main_arg2) _ = whole (V c main_arg0) (V c main_arg2) (((cfg0.win 2).blk t).view.emb (ix2 p q))
  refine congrArg (whole (V c main_arg0) (V c main_arg2)) ?_
  funext a
  apply Fin.ext
  match a with
  | ⟨0, _⟩ => show 5000 * t.val + p.val = win0_2.index t 0 * 5000 + 1 * p.val; rw [e4]; omega
  | ⟨1, _⟩ => show q.val = win0_2.index t 1 * 96 + 1 * q.val; rw [e5]; omega

/-- An index of the result array is in point t's block iff each coordinate is in the block's range on its axis. -/
theorem mem_blk (t : Fin cfg0.N) (i : S50000x96.Idx) :
    i ∈ ((cfg0.win 2).blk t).view.set ↔ ∀ a : Fin 2, win0_2.index t a * S5000x96.size a ≤ (i a).val ∧ (i a).val < win0_2.index t a * S5000x96.size a + S5000x96.size a := by
  show i ∈ ((View.whole main_v30).slice (win0_2.rect t)).set ↔ _
  rw [View.set_slice_whole, Rect.mem_set_unit]
  exact Iff.rfl

/-- The point that writes row r is r / 5000. -/
theorem cover (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  have hN : cfg0.N = 10 := N_0
  refine ⟨⟨(i 0).val / 5000, by rw [hN]; omega⟩, flush0_2 _, ?_⟩
  rw [mem_blk]
  obtain ⟨-, -, -, -, e4, e5, -⟩ := idx_facts ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 96 ≤ (i 1).val ∧ (i 1).val < win0_2.index _ (1 : Fin 2) * 96 + 96; rw [e5]; omega

/-- THE RESULT ARRAY after the region: the host's matrix product of the two arrays as the region found them. -/
theorem result (c : Dev nD) :
    (dat0 V c).arrAt 2 cfg0.N = whole (V c main_arg0) (V c main_arg2) :=
  (dat0 V c).arrAt_eq_of_cover 2 (whole (V c main_arg0) (V c main_arg2)) (fun t _ => flushed_eq V c t) (cover)

end Cert.KernelIdeal.Tiles0

end
-- ==== Proof.Tiles1.lean ====
/-
  Region 1: the rows of a matrix product, ten tiles of 5000 rows.

  The pallas_call's grid has ten points. Point t loads rows 5000·t … 5000·t + 4999 of the left factor (a table of 50000
  rows and 96 columns) and the whole right factor (96 × 96), narrows both to bf16 — the identity over the extended
  reals —, multiplies them into a zero accumulator and writes the 5000 × 96 product back as rows 5000·t … of the result.
  A row of a product depends on the same row of the left factor only, so row p of tile t is row 5000·t + p of the product
  of the whole table, and the ten tiles cover the 50000 rows: after the region the result array holds the host's
  matrix product of the two arrays as the region found them.
-/
import proofs.«148496_j54855322304748_1_alg».proof.Proof.Gen.KernelIdeal.Frame
import proofs.«148496_j54855322304748_1_alg».proof.Proof.LibMatmulRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole table by the right factor, as the host computes it. -/
abbrev whole (X : FVec Ideal S50000x96 .f32) (W : FVec Ideal S96x96 .f32) : FVec Ideal S50000x96 .f32 :=
  Host.dotGeneral (DotDims.plain 50000 96 96) none X W

/-- Entry (p, q) of what the body stores is entry (P, q) of the whole product, when row p of the loaded left block is
    row P of the table and the loaded right block is the whole right factor. -/
theorem stored_entry (x0 : Vec Ideal S5000x96 .f32) (x1 : Vec Ideal S96x96 .f32)
    (X : FVec Ideal S50000x96 .f32) (W : FVec Ideal S96x96 .f32) (p : Fin 5000) (P : Fin 50000) (q : Fin 96)
    (hrow : ∀ k : Fin 96, x0 (ix2 p k) = X (ix2 P k)) (hw : x1 = W) :
    k1_pay1 x0 x1 (ix2 p q) = whole X W (ix2 P q) := by
  unfold k1_pay1
  simp only [shapeCast_self]
  exact Cert.MatmulRows.block_entry x0 x1 X W bitsLt_bf16_f32 bitsLt_bf16_f32 p P q hrow hw

/-- The printed index maps over the grid: the left factor's and the result's block row is the point's number, every other
    block index is 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Entry (p, k) of the left factor's block at point t is entry (5000·t + p, k) of its array. -/
theorem left_block (c : Dev nD) (t : Fin cfg1.N) (p : Fin 5000) (k : Fin 96) (P : Fin 50000) (hP : P.val = 5000 * t.val + p.val) :
    (iblk1 V c 0 t : Vec Ideal S5000x96 .f32) (ix2 p k) = (V c main_v47 : S50000x96.Idx → Elt Ideal .f32) (ix2 P k) := by
  obtain ⟨e0, e1, -, -, -, -, -⟩ := idx_facts t
  unfold iblk1
  rw [View.read_apply]
  show V c main_v47 _ = V c main_v47 _
  refine congrArg (V c main_v47) ?_
  funext a
  apply Fin.ext
  match a with
  | ⟨0, _⟩ => show win1_0.index t 0 * 5000 + 1 * p.val = P.val; rw [e0, hP]; omega
  | ⟨1, _⟩ => show win1_0.index t 1 * 96 + 1 * k.val = k.val; rw [e1]; omega

/-- The right factor's block at every point is its whole array. -/
theorem right_block (c : Dev nD) (t : Fin cfg1.N) :
    (iblk1 V c 1 t : Vec Ideal S96x96 .f32) = (V c main_arg4 : S96x96.Idx → Elt Ideal .f32) := by
  obtain ⟨-, -, e2, e3, -, -, -⟩ := idx_facts t
  unfold iblk1
  funext y
  rw [View.read_apply]
  show V c main_arg4 _ = V c main_arg4 _
  refine congrArg (V c main_arg4) ?_
  funext a
  apply Fin.ext
  match a with
  | ⟨0, _⟩ => show win1_1.index t 0 * 96 + 1 * (y 0).val = (y 0).val; rw [e2]; omega
  | ⟨1, _⟩ => show win1_1.index t 1 * 96 + 1 * (y 1).val = (y 1).val; rw [e3]; omega

/-- WHAT POINT t WRITES BACK is block t of the whole product of the arrays as the region finds them. -/
theorem flushed_eq (c : Dev nD) (t : Fin cfg1.N) :
    (dat1 V c).flushed 2 t = ((cfg1.win 2).blk t).view.read (Elt Ideal) (whole (V c main_v47) (V c main_arg4)) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x96) hz]
  obtain ⟨-, -, -, -, e4, e5, hlt⟩ := idx_facts t
  funext j
  obtain ⟨p, q, rfl⟩ : ∃ (p : Fin 5000) (q : Fin 96), j = ix2 p q := ⟨j 0, j 1, eq_ix2 j⟩
  have hPlt : 5000 * t.val + p.val < 50000 := by have := p.isLt; omega
  refine (stored_entry (iblk1 V c 0 t) (iblk1 V c 1 t) (V c main_v47) (V c main_arg4) p ⟨5000 * t.val + p.val, hPlt⟩ q
    (fun k => left_block V c t p k ⟨5000 * t.val + p.val, hPlt⟩ rfl) (right_block V c t)).trans ?_
  show whole (V c main_v47) (V c main_arg4) _ = whole (V c main_v47) (V c main_arg4) (((cfg1.win 2).blk t).view.emb (ix2 p q))
  refine congrArg (whole (V c main_v47) (V c main_arg4)) ?_
  funext a
  apply Fin.ext
  match a with
  | ⟨0, _⟩ => show 5000 * t.val + p.val = win1_2.index t 0 * 5000 + 1 * p.val; rw [e4]; omega
  | ⟨1, _⟩ => show q.val = win1_2.index t 1 * 96 + 1 * q.val; rw [e5]; omega

/-- An index of the result array is in point t's block iff each coordinate is in the block's range on its axis. -/
theorem mem_blk (t : Fin cfg1.N) (i : S50000x96.Idx) :
    i ∈ ((cfg1.win 2).blk t).view.set ↔ ∀ a : Fin 2, win1_2.index t a * S5000x96.size a ≤ (i a).val ∧ (i a).val < win1_2.index t a * S5000x96.size a + S5000x96.size a := by
  show i ∈ ((View.whole main_v48).slice (win1_2.rect t)).set ↔ _
  rw [View.set_slice_whole, Rect.mem_set_unit]
  exact Iff.rfl

/-- The point that writes row r is r / 5000. -/
theorem cover (i : S50000x96.Idx) : ∃ t : Fin cfg1.N, (cfg1.win 2).flush t = true ∧ i ∈ ((cfg1.win 2).blk t).view.set := by
  have hi0 : (i 0).val < 50000 := (i 0).isLt
  have hi1 : (i 1).val < 96 := (i 1).isLt
  have hN : cfg1.N = 10 := N_1
  refine ⟨⟨(i 0).val / 5000, by rw [hN]; omega⟩, flush1_2 _, ?_⟩
  rw [mem_blk]
  obtain ⟨-, -, -, -, e4, e5, -⟩ := idx_facts ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 96 ≤ (i 1).val ∧ (i 1).val < win1_2.index _ (1 : Fin 2) * 96 + 96; rw [e5]; omega

/-- THE RESULT ARRAY after the region: the host's matrix product of the two arrays as the region found them. -/
theorem result (c : Dev nD) :
    (dat1 V c).arrAt 2 cfg1.N = whole (V c main_v47) (V c main_arg4) :=
  (dat1 V c).arrAt_eq_of_cover 2 (whole (V c main_v47) (V c main_arg4)) (fun t _ => flushed_eq V c t) (cover)

end Cert.KernelIdeal.Tiles1

end
-- ==== Proof.Tiles2.lean ====
/-
  Region 2: the rows of a matrix product, ten tiles of 5000 rows.

  The pallas_call's grid has ten points. Point t loads rows 5000·t … 5000·t + 4999 of the left factor (a table of 50000
  rows and 96 columns) and the whole right factor (96 × 40), narrows both to bf16 — the identity over the extended
  reals —, multiplies them into a zero accumulator and writes the 5000 × 40 product back as rows 5000·t … of the result.
  A row of a product depends on the same row of the left factor only, so row p of tile t is row 5000·t + p of the product
  of the whole table, and the ten tiles cover the 50000 rows: after the region the result array holds the host's
  matrix product of the two arrays as the region found them.
-/
import proofs.«148496_j54855322304748_1_alg».proof.Proof.Gen.KernelIdeal.Frame
import proofs.«148496_j54855322304748_1_alg».proof.Proof.LibMatmulRows
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Tiles2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product of the whole table by the right factor, as the host computes it. -/
abbrev whole (X : FVec Ideal S50000x96 .f32) (W : FVec Ideal S96x40 .f32) : FVec Ideal S50000x40 .f32 :=
  Host.dotGeneral (DotDims.plain 50000 96 40) none X W

/-- Entry (p, q) of what the body stores is entry (P, q) of the whole product, when row p of the loaded left block is
    row P of the table and the loaded right block is the whole right factor. -/
theorem stored_entry (x0 : Vec Ideal S5000x96 .f32) (x1 : Vec Ideal S96x40 .f32)
    (X : FVec Ideal S50000x96 .f32) (W : FVec Ideal S96x40 .f32) (p : Fin 5000) (P : Fin 50000) (q : Fin 40)
    (hrow : ∀ k : Fin 96, x0 (ix2 p k) = X (ix2 P k)) (hw : x1 = W) :
    k2_pay1 x0 x1 (ix2 p q) = whole X W (ix2 P q) := by
  unfold k2_pay1
  simp only [shapeCast_self]
  exact Cert.MatmulRows.block_entry x0 x1 X W bitsLt_bf16_f32 bitsLt_bf16_f32 p P q hrow hw

/-- The printed index maps over the grid: the left factor's and the result's block row is the point's number, every other
    block index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- Entry (p, k) of the left factor's block at point t is entry (5000·t + p, k) of its array. -/
theorem left_block (c : Dev nD) (t : Fin cfg2.N) (p : Fin 5000) (k : Fin 96) (P : Fin 50000) (hP : P.val = 5000 * t.val + p.val) :
    (iblk2 V c 0 t : Vec Ideal S5000x96 .f32) (ix2 p k) = (V c main_v65 : S50000x96.Idx → Elt Ideal .f32) (ix2 P k) := by
  obtain ⟨e0, e1, -, -, -, -, -⟩ := idx_facts t
  unfold iblk2
  rw [View.read_apply]
  show V c main_v65 _ = V c main_v65 _
  refine congrArg (V c main_v65) ?_
  funext a
  apply Fin.ext
  match a with
  | ⟨0, _⟩ => show win2_0.index t 0 * 5000 + 1 * p.val = P.val; rw [e0, hP]; omega
  | ⟨1, _⟩ => show win2_0.index t 1 * 96 + 1 * k.val = k.val; rw [e1]; omega

/-- The right factor's block at every point is its whole array. -/
theorem right_block (c : Dev nD) (t : Fin cfg2.N) :
    (iblk2 V c 1 t : Vec Ideal S96x40 .f32) = (V c main_arg6 : S96x40.Idx → Elt Ideal .f32) := by
  obtain ⟨-, -, e2, e3, -, -, -⟩ := idx_facts t
  unfold iblk2
  funext y
  rw [View.read_apply]
  show V c main_arg6 _ = V c main_arg6 _
  refine congrArg (V c main_arg6) ?_
  funext a
  apply Fin.ext
  match a with
  | ⟨0, _⟩ => show win2_1.index t 0 * 96 + 1 * (y 0).val = (y 0).val; rw [e2]; omega
  | ⟨1, _⟩ => show win2_1.index t 1 * 40 + 1 * (y 1).val = (y 1).val; rw [e3]; omega

/-- WHAT POINT t WRITES BACK is block t of the whole product of the arrays as the region finds them. -/
theorem flushed_eq (c : Dev nD) (t : Fin cfg2.N) :
    (dat2 V c).flushed 2 t = ((cfg2.win 2).blk t).view.read (Elt Ideal) (whole (V c main_v65) (V c main_arg6)) := by
  show (cfg2.win 2).cut (grid2.coords t) ((dat2 V c).after 2 t) = _
  rw [after2_2]
  unfold out2_2
  rw [View.canon_unit_zero hz]
  simp only [View.ld_unit_zero (S := S5000x96) hz, View.ld_unit_zero (S := S96x40) hz]
  obtain ⟨-, -, -, -, e4, e5, hlt⟩ := idx_facts t
  funext j
  obtain ⟨p, q, rfl⟩ : ∃ (p : Fin 5000) (q : Fin 40), j = ix2 p q := ⟨j 0, j 1, eq_ix2 j⟩
  have hPlt : 5000 * t.val + p.val < 50000 := by have := p.isLt; omega
  refine (stored_entry (iblk2 V c 0 t) (iblk2 V c 1 t) (V c main_v65) (V c main_arg6) p ⟨5000 * t.val + p.val, hPlt⟩ q
    (fun k => left_block V c t p k ⟨5000 * t.val + p.val, hPlt⟩ rfl) (right_block V c t)).trans ?_
  show whole (V c main_v65) (V c main_arg6) _ = whole (V c main_v65) (V c main_arg6) (((cfg2.win 2).blk t).view.emb (ix2 p q))
  refine congrArg (whole (V c main_v65) (V c main_arg6)) ?_
  funext a
  apply Fin.ext
  match a with
  | ⟨0, _⟩ => show 5000 * t.val + p.val = win2_2.index t 0 * 5000 + 1 * p.val; rw [e4]; omega
  | ⟨1, _⟩ => show q.val = win2_2.index t 1 * 40 + 1 * q.val; rw [e5]; omega

/-- An index of the result array is in point t's block iff each coordinate is in the block's range on its axis. -/
theorem mem_blk (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v66).slice (win2_2.rect t)).set ↔ _
  rw [View.set_slice_whole, Rect.mem_set_unit]
  exact Iff.rfl

/-- The point that writes row r is r / 5000. -/
theorem cover (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  refine ⟨⟨(i 0).val / 5000, by rw [hN]; omega⟩, flush2_2 _, ?_⟩
  rw [mem_blk]
  obtain ⟨-, -, -, -, e4, e5, -⟩ := idx_facts ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 40 ≤ (i 1).val ∧ (i 1).val < win2_2.index _ (1 : Fin 2) * 40 + 40; rw [e5]; omega

/-- THE RESULT ARRAY after the region: the host's matrix product of the two arrays as the region found them. -/
theorem result (c : Dev nD) :
    (dat2 V c).arrAt 2 cfg2.N = whole (V c main_v65) (V c main_arg6) :=
  (dat2 V c).arrAt_eq_of_cover 2 (whole (V c main_v65) (V c main_arg6)) (fun t _ => flushed_eq V c t) (cover)

end Cert.KernelIdeal.Tiles2

end
-- ==== Proof.Stretches.lean ====
/-
  The host operations of the kernel's program between its three matrix products, read as functions.

  The program's @main is eight stretches of host operations around three regions. Read from the buffer contents `W`
  a stretch starts from, the stretches before the first region build the messages' end points and weights from the
  edge list; the stretch after each of the first two regions is one aggregation step of the network (gather by source,
  scale, sum by target, bias, clip at zero) applied to the region's product; the last adds the output bias. Each
  buffer a later stretch still needs is left alone by the stretches in between. No operation is opened: each equation
  is the stretch's operations composed, which is the network's function by definition.
-/
import proofs.«148496_j54855322304748_1_alg».proof.Proof.Gen.KernelIdeal.Launch
import proofs.«148496_j54855322304748_1_alg».proof.Proof.Gen.ReferenceIdeal
import proofs.«148496_j54855322304748_1_alg».proof.Proof.Model
import Idealize.ShloMosaic.Lib.StableHlo.Run

noncomputable section

open Idealize.ShloMosaic Idealize.ShloMosaic.TcCoe Idealize.SL.Sem Idealize.ShloMosaic.StableHlo

namespace Cert.KernelIdeal.Stretches

open Cert.KernelIdeal Cert.KernelIdeal.Gen

variable {F : FTy → Type} [FloatOps F]
variable (W : Valuation τ sig (Elt F))

/-- The buffer contents after the three stretches before the first region. -/
abbrev afterPrefix : Valuation τ sig (Elt F) := after hostOps0_2 (after hostOps0_1 (after hostOps0 W))
/-- The buffer contents after the two stretches between the first and the second region. -/
abbrev afterLayer1 : Valuation τ sig (Elt F) := after hostOps1_1 (after hostOps1 W)
/-- The buffer contents after the two stretches between the second and the third region. -/
abbrev afterLayer2 : Valuation τ sig (Elt F) := after hostOps2_1 (after hostOps2 W)
/-- The buffer contents after the last stretch. -/
abbrev afterTail : Valuation τ sig (Elt F) := after hostOps3 W

/-! ## Before the first region: the messages' end points and weights -/

theorem prefix_src : afterPrefix W (Proc.devRef .tc main_v3) = Cert.Gcn.srcIds (W (Proc.devRef .tc main_arg1)) := by
  after_results_simp <;> rfl

theorem prefix_dst : afterPrefix W (Proc.devRef .tc main_v6) = Cert.Gcn.dstIds (W (Proc.devRef .tc main_arg1)) := by
  after_results_simp <;> rfl

theorem prefix_weight : afterPrefix W (Proc.devRef .tc main_v29)
    = Cert.Gcn.edgeWeight (Cert.Gcn.srcIds (W (Proc.devRef .tc main_arg1))) (Cert.Gcn.dstIds (W (Proc.devRef .tc main_arg1))) := by
  after_results_simp <;> rfl

theorem prefix_arg0 : afterPrefix W (Proc.devRef .tc main_arg0) = W (Proc.devRef .tc main_arg0) := by after_results_simp <;> rfl
theorem prefix_arg2 : afterPrefix W (Proc.devRef .tc main_arg2) = W (Proc.devRef .tc main_arg2) := by after_results_simp <;> rfl
theorem prefix_arg3 : afterPrefix W (Proc.devRef .tc main_arg3) = W (Proc.devRef .tc main_arg3) := by after_results_simp <;> rfl
theorem prefix_arg4 : afterPrefix W (Proc.devRef .tc main_arg4) = W (Proc.devRef .tc main_arg4) := by after_results_simp <;> rfl
theorem prefix_arg5 : afterPrefix W (Proc.devRef .tc main_arg5) = W (Proc.devRef .tc main_arg5) := by after_results_simp <;> rfl
theorem prefix_arg6 : afterPrefix W (Proc.devRef .tc main_arg6) = W (Proc.devRef .tc main_arg6) := by after_results_simp <;> rfl
theorem prefix_arg7 : afterPrefix W (Proc.devRef .tc main_arg7) = W (Proc.devRef .tc main_arg7) := by after_results_simp <;> rfl

/-! ## After the first region: one aggregation step on its product -/

theorem layer1_out : afterLayer1 W (Proc.devRef .tc main_v47)
    = Cert.Gcn.aggregate (W (Proc.devRef .tc main_v30)) (W (Proc.devRef .tc main_v3)) (W (Proc.devRef .tc main_v6))
        (W (Proc.devRef .tc main_v29)) (W (Proc.devRef .tc main_arg3)) := by
  after_results_simp <;> rfl

theorem layer1_src : afterLayer1 W (Proc.devRef .tc main_v3) = W (Proc.devRef .tc main_v3) := by after_results_simp <;> rfl
theorem layer1_dst : afterLayer1 W (Proc.devRef .tc main_v6) = W (Proc.devRef .tc main_v6) := by after_results_simp <;> rfl
theorem layer1_weight : afterLayer1 W (Proc.devRef .tc main_v29) = W (Proc.devRef .tc main_v29) := by after_results_simp <;> rfl
theorem layer1_arg4 : afterLayer1 W (Proc.devRef .tc main_arg4) = W (Proc.devRef .tc main_arg4) := by after_results_simp <;> rfl
theorem layer1_arg5 : afterLayer1 W (Proc.devRef .tc main_arg5) = W (Proc.devRef .tc main_arg5) := by after_results_simp <;> rfl
theorem layer1_arg6 : afterLayer1 W (Proc.devRef .tc main_arg6) = W (Proc.devRef .tc main_arg6) := by after_results_simp <;> rfl
theorem layer1_arg7 : afterLayer1 W (Proc.devRef .tc main_arg7) = W (Proc.devRef .tc main_arg7) := by after_results_simp <;> rfl

/-! ## After the second region: the same step on its product -/

theorem layer2_out : afterLayer2 W (Proc.devRef .tc main_v65)
    = Cert.Gcn.aggregate (W (Proc.devRef .tc main_v48)) (W (Proc.devRef .tc main_v3)) (W (Proc.devRef .tc main_v6))
        (W (Proc.devRef .tc main_v29)) (W (Proc.devRef .tc main_arg5)) := by
  after_results_simp <;> rfl

theorem layer2_arg6 : afterLayer2 W (Proc.devRef .tc main_arg6) = W (Proc.devRef .tc main_arg6) := by after_results_simp <;> rfl
theorem layer2_arg7 : afterLayer2 W (Proc.devRef .tc main_arg7) = W (Proc.devRef .tc main_arg7) := by after_results_simp <;> rfl

/-! ## After the third region: the output bias -/

theorem tail_out : afterTail W (Proc.devRef .tc main_v69)
    = Cert.Gcn.addBias (W (Proc.devRef .tc main_v66)) (W (Proc.devRef .tc main_arg7)) := by
  after_results_simp <;> rfl

end Cert.KernelIdeal.Stretches

end
-- ==== Proof.KernelValue.lean ====
/-
  The kernel program's result buffer holds the network applied to the arguments.

  The contents at each segment boundary are followed from the launch to the return. Three kinds of buffer matter: the
  arguments, which nothing writes; the messages' end points and weights, written once before the first region and
  read by both aggregation steps; and the node features, which each region replaces by their product with its weight
  matrix (the host's matrix product: the ten row tiles cover the table) and each following stretch aggregates. At the
  return the result buffer holds the output bias added to the third product, which is the network's definition.
-/
import proofs.«148496_j54855322304748_1_alg».proof.Proof.Gen.KernelIdeal.Frame
import proofs.«148496_j54855322304748_1_alg».proof.Proof.Tiles0
import proofs.«148496_j54855322304748_1_alg».proof.Proof.Tiles1
import proofs.«148496_j54855322304748_1_alg».proof.Proof.Tiles2
import proofs.«148496_j54855322304748_1_alg».proof.Proof.Stretches

noncomputable section

open Idealize.ShloMosaic Idealize.ShloMosaic.TcCoe Idealize.SL.Sem

namespace Cert.KernelIdeal.Chain

open Cert.KernelIdeal Cert.KernelIdeal.Gen Cert.KernelIdeal.Stretches

variable (m : (ℓ : Loc nD τ sig) → Buf (Elt Ideal) ℓ) (ρ : Dev nD → PrngReg) (c : Dev nD)

/-! ## At the first region's entry -/

theorem W3_src : W3 m ρ c (Proc.devRef .tc main_v3) = (Cert.Gcn.srcIds (m ((c : Thread nD τ).loc main_arg1))) := prefix_src (W0 m ρ c)
theorem W3_dst : W3 m ρ c (Proc.devRef .tc main_v6) = (Cert.Gcn.dstIds (m ((c : Thread nD τ).loc main_arg1))) := prefix_dst (W0 m ρ c)
theorem W3_weight : W3 m ρ c (Proc.devRef .tc main_v29) = (Cert.Gcn.edgeWeight (Cert.Gcn.srcIds (m ((c : Thread nD τ).loc main_arg1))) (Cert.Gcn.dstIds (m ((c : Thread nD τ).loc main_arg1)))) := prefix_weight (W0 m ρ c)
theorem W3_arg0 : W3 m ρ c (Proc.devRef .tc main_arg0) = (m ((c : Thread nD τ).loc main_arg0)) := prefix_arg0 (W0 m ρ c)
theorem W3_arg2 : W3 m ρ c (Proc.devRef .tc main_arg2) = (m ((c : Thread nD τ).loc main_arg2)) := prefix_arg2 (W0 m ρ c)
theorem W3_arg3 : W3 m ρ c (Proc.devRef .tc main_arg3) = (m ((c : Thread nD τ).loc main_arg3)) := prefix_arg3 (W0 m ρ c)
theorem W3_arg4 : W3 m ρ c (Proc.devRef .tc main_arg4) = (m ((c : Thread nD τ).loc main_arg4)) := prefix_arg4 (W0 m ρ c)
theorem W3_arg5 : W3 m ρ c (Proc.devRef .tc main_arg5) = (m ((c : Thread nD τ).loc main_arg5)) := prefix_arg5 (W0 m ρ c)
theorem W3_arg6 : W3 m ρ c (Proc.devRef .tc main_arg6) = (m ((c : Thread nD τ).loc main_arg6)) := prefix_arg6 (W0 m ρ c)
theorem W3_arg7 : W3 m ρ c (Proc.devRef .tc main_arg7) = (m ((c : Thread nD τ).loc main_arg7)) := prefix_arg7 (W0 m ρ c)

/-! ## At the first region's exit: the first product; every other buffer as entered -/

theorem W4_out : W4 m ρ c (Proc.devRef .tc main_v30) = (Cert.KernelIdeal.Tiles0.whole (m ((c : Thread nD τ).loc main_arg0)) (m ((c : Thread nD τ).loc main_arg2))) :=
  (W4_arr m ρ c 2).trans ((Cert.KernelIdeal.Tiles0.result (V3 m ρ) c).trans (by
    show Cert.KernelIdeal.Tiles0.whole (W3 m ρ c (Proc.devRef .tc main_arg0)) (W3 m ρ c (Proc.devRef .tc main_arg2)) = _
    rw [W3_arg0, W3_arg2]))
theorem W4_src : W4 m ρ c (Proc.devRef .tc main_v3) = (Cert.Gcn.srcIds (m ((c : Thread nD τ).loc main_arg1))) := (W4_of_ne m ρ c main_v3 (by decide)).trans (W3_src m ρ c)
theorem W4_dst : W4 m ρ c (Proc.devRef .tc main_v6) = (Cert.Gcn.dstIds (m ((c : Thread nD τ).loc main_arg1))) := (W4_of_ne m ρ c main_v6 (by decide)).trans (W3_dst m ρ c)
theorem W4_weight : W4 m ρ c (Proc.devRef .tc main_v29) = (Cert.Gcn.edgeWeight (Cert.Gcn.srcIds (m ((c : Thread nD τ).loc main_arg1))) (Cert.Gcn.dstIds (m ((c : Thread nD τ).loc main_arg1)))) := (W4_of_ne m ρ c main_v29 (by decide)).trans (W3_weight m ρ c)
theorem W4_arg3 : W4 m ρ c (Proc.devRef .tc main_arg3) = (m ((c : Thread nD τ).loc main_arg3)) := (W4_of_ne m ρ c main_arg3 (by decide)).trans (W3_arg3 m ρ c)
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W4_arg7 : W4 m ρ c (Proc.devRef .tc main_arg7) = (m ((c : Thread nD τ).loc main_arg7)) := (W4_of_ne m ρ c main_arg7 (by decide)).trans (W3_arg7 m ρ c)

/-! ## At the second region's entry: the first layer's features -/

theorem W6_out : W6 m ρ c (Proc.devRef .tc main_v47) = (Cert.Gcn.aggregate (Cert.KernelIdeal.Tiles0.whole (m ((c : Thread nD τ).loc main_arg0)) (m ((c : Thread nD τ).loc main_arg2))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg3))) := by
  have h := layer1_out (W4 m ρ c)
  rw [W4_out, W4_src, W4_dst, W4_weight, W4_arg3] at h
  exact h
theorem W6_src : W6 m ρ c (Proc.devRef .tc main_v3) = (Cert.Gcn.srcIds (m ((c : Thread nD τ).loc main_arg1))) := (layer1_src (W4 m ρ c)).trans (W4_src m ρ c)
theorem W6_dst : W6 m ρ c (Proc.devRef .tc main_v6) = (Cert.Gcn.dstIds (m ((c : Thread nD τ).loc main_arg1))) := (layer1_dst (W4 m ρ c)).trans (W4_dst m ρ c)
theorem W6_weight : W6 m ρ c (Proc.devRef .tc main_v29) = (Cert.Gcn.edgeWeight (Cert.Gcn.srcIds (m ((c : Thread nD τ).loc main_arg1))) (Cert.Gcn.dstIds (m ((c : Thread nD τ).loc main_arg1)))) := (layer1_weight (W4 m ρ c)).trans (W4_weight m ρ c)
theorem W6_arg4 : W6 m ρ c (Proc.devRef .tc main_arg4) = (m ((c : Thread nD τ).loc main_arg4)) := (layer1_arg4 (W4 m ρ c)).trans (W4_arg4 m ρ c)
theorem W6_arg5 : W6 m ρ c (Proc.devRef .tc main_arg5) = (m ((c : Thread nD τ).loc main_arg5)) := (layer1_arg5 (W4 m ρ c)).trans (W4_arg5 m ρ c)
theorem W6_arg6 : W6 m ρ c (Proc.devRef .tc main_arg6) = (m ((c : Thread nD τ).loc main_arg6)) := (layer1_arg6 (W4 m ρ c)).trans (W4_arg6 m ρ c)
theorem W6_arg7 : W6 m ρ c (Proc.devRef .tc main_arg7) = (m ((c : Thread nD τ).loc main_arg7)) := (layer1_arg7 (W4 m ρ c)).trans (W4_arg7 m ρ c)

/-! ## At the second region's exit: the second product -/

theorem W7_out : W7 m ρ c (Proc.devRef .tc main_v48) = (Cert.KernelIdeal.Tiles1.whole (Cert.Gcn.aggregate (Cert.KernelIdeal.Tiles0.whole (m ((c : Thread nD τ).loc main_arg0)) (m ((c : Thread nD τ).loc main_arg2))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg3))) (m ((c : Thread nD τ).loc main_arg4))) :=
  (W7_arr m ρ c 2).trans ((Cert.KernelIdeal.Tiles1.result (V6 m ρ) c).trans (by
    show Cert.KernelIdeal.Tiles1.whole (W6 m ρ c (Proc.devRef .tc main_v47)) (W6 m ρ c (Proc.devRef .tc main_arg4)) = _
    rw [W6_out, W6_arg4]))
theorem W7_src : W7 m ρ c (Proc.devRef .tc main_v3) = (Cert.Gcn.srcIds (m ((c : Thread nD τ).loc main_arg1))) := (W7_of_ne m ρ c main_v3 (by decide)).trans (W6_src m ρ c)
theorem W7_dst : W7 m ρ c (Proc.devRef .tc main_v6) = (Cert.Gcn.dstIds (m ((c : Thread nD τ).loc main_arg1))) := (W7_of_ne m ρ c main_v6 (by decide)).trans (W6_dst m ρ c)
theorem W7_weight : W7 m ρ c (Proc.devRef .tc main_v29) = (Cert.Gcn.edgeWeight (Cert.Gcn.srcIds (m ((c : Thread nD τ).loc main_arg1))) (Cert.Gcn.dstIds (m ((c : Thread nD τ).loc main_arg1)))) := (W7_of_ne m ρ c main_v29 (by decide)).trans (W6_weight m ρ c)
theorem W7_arg5 : W7 m ρ c (Proc.devRef .tc main_arg5) = (m ((c : Thread nD τ).loc main_arg5)) := (W7_of_ne m ρ c main_arg5 (by decide)).trans (W6_arg5 m ρ c)
theorem W7_arg6 : W7 m ρ c (Proc.devRef .tc main_arg6) = (m ((c : Thread nD τ).loc main_arg6)) := (W7_of_ne m ρ c main_arg6 (by decide)).trans (W6_arg6 m ρ c)
theorem W7_arg7 : W7 m ρ c (Proc.devRef .tc main_arg7) = (m ((c : Thread nD τ).loc main_arg7)) := (W7_of_ne m ρ c main_arg7 (by decide)).trans (W6_arg7 m ρ c)

/-! ## At the third region's entry: the second layer's features -/

theorem W9_out : W9 m ρ c (Proc.devRef .tc main_v65) = (Cert.Gcn.aggregate (Cert.KernelIdeal.Tiles1.whole (Cert.Gcn.aggregate (Cert.KernelIdeal.Tiles0.whole (m ((c : Thread nD τ).loc main_arg0)) (m ((c : Thread nD τ).loc main_arg2))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg3))) (m ((c : Thread nD τ).loc main_arg4))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg5))) := by
  have h := layer2_out (W7 m ρ c)
  rw [W7_out, W7_src, W7_dst, W7_weight, W7_arg5] at h
  exact h
theorem W9_arg6 : W9 m ρ c (Proc.devRef .tc main_arg6) = (m ((c : Thread nD τ).loc main_arg6)) := (layer2_arg6 (W7 m ρ c)).trans (W7_arg6 m ρ c)
theorem W9_arg7 : W9 m ρ c (Proc.devRef .tc main_arg7) = (m ((c : Thread nD τ).loc main_arg7)) := (layer2_arg7 (W7 m ρ c)).trans (W7_arg7 m ρ c)

/-! ## At the third region's exit: the third product -/

theorem W10_out : W10 m ρ c (Proc.devRef .tc main_v66) = (Cert.KernelIdeal.Tiles2.whole (Cert.Gcn.aggregate (Cert.KernelIdeal.Tiles1.whole (Cert.Gcn.aggregate (Cert.KernelIdeal.Tiles0.whole (m ((c : Thread nD τ).loc main_arg0)) (m ((c : Thread nD τ).loc main_arg2))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg3))) (m ((c : Thread nD τ).loc main_arg4))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg5))) (m ((c : Thread nD τ).loc main_arg6))) :=
  (W10_arr m ρ c 2).trans ((Cert.KernelIdeal.Tiles2.result (V9 m ρ) c).trans (by
    show Cert.KernelIdeal.Tiles2.whole (W9 m ρ c (Proc.devRef .tc main_v65)) (W9 m ρ c (Proc.devRef .tc main_arg6)) = _
    rw [W9_out, W9_arg6]))
theorem W10_arg7 : W10 m ρ c (Proc.devRef .tc main_arg7) = (m ((c : Thread nD τ).loc main_arg7)) := (W10_of_ne m ρ c main_arg7 (by decide)).trans (W9_arg7 m ρ c)

/-! ## At the return -/

theorem W11_out : W11 m ρ c (Proc.devRef .tc main_v69) = (Cert.Gcn.addBias (Cert.KernelIdeal.Tiles2.whole (Cert.Gcn.aggregate (Cert.KernelIdeal.Tiles1.whole (Cert.Gcn.aggregate (Cert.KernelIdeal.Tiles0.whole (m ((c : Thread nD τ).loc main_arg0)) (m ((c : Thread nD τ).loc main_arg2))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg3))) (m ((c : Thread nD τ).loc main_arg4))) (Cert.Gcn.srcIds (m ((c : Thread nD τ).loc main_arg1))) (Cert.Gcn.dstIds (m ((c : Thread nD τ).loc main_arg1))) (Cert.Gcn.edgeWeight (Cert.Gcn.srcIds (m ((c : Thread nD τ).loc main_arg1))) (Cert.Gcn.dstIds (m ((c : Thread nD τ).loc main_arg1)))) (m ((c : Thread nD τ).loc main_arg5))) (m ((c : Thread nD τ).loc main_arg6))) (m ((c : Thread nD τ).loc main_arg7))) := by
  have h := tail_out (W10 m ρ c)
  rw [W10_out, W10_arg7] at h
  exact h

/-- The result buffer at the return holds the network of the eight arguments as launched: the three tiled products
    are the host's matrix products the network's definition names. -/
theorem result : W11 m ρ c (Proc.devRef .tc main_v69)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W11_out m ρ c).trans rfl

end Cert.KernelIdeal.Chain

end
-- ==== Proof.lean ====
/-
  The certificate of a three-layer graph-convolution network whose dense products run as Pallas kernels.

  Both programs compute, over the extended reals, two graph-convolution layers and a dense output layer on 50000 nodes
  and 800000 edges (Proof/Model.lean: `Cert.Gcn.network`). The degree normalisation, the gathers by source, the
  scatter-adds by target, the biases and the clipping at zero are the same host operations in both; the programs
  differ only in the three products h·W, which the reference takes as one host matrix product and the kernel program
  computes in ten tiles of 5000 rows with operands narrowed to bf16 — the identity over the extended reals — into a zero
  accumulator. A row of a product depends on the same row of the left factor only, and the tiles cover the rows, so
  each region leaves the host's product in its result array (Proof/Tiles0–2.lean). Following the buffer contents from
  the launch to the return (Proof/Stretches.lean, Proof/KernelValue.lean) the kernel program's result is the network of
  its arguments; the reference's composed term is the same function by unfolding (Proof/RefValue.lean). No finiteness
  of the inputs is needed: both sides form the same sums in the same order.

  The three frames are the generated ones (the reference's is its run with the result dropped); the idealization
  rewrote no operation, so `preserves` is trivial.
-/
import proofs.«148496_j54855322304748_1_alg».proof.Defs
import proofs.«148496_j54855322304748_1_alg».proof.Proof.Gen.Kernel
import proofs.«148496_j54855322304748_1_alg».proof.Proof.Gen.Kernel.Frame
import proofs.«148496_j54855322304748_1_alg».proof.Proof.Gen.KernelIdeal
import proofs.«148496_j54855322304748_1_alg».proof.Proof.Gen.KernelIdeal.Frame
import proofs.«148496_j54855322304748_1_alg».proof.Proof.Gen.ReferenceIdeal
import proofs.«148496_j54855322304748_1_alg».proof.Proof.Gen.Pre_finite_inputs
import proofs.«148496_j54855322304748_1_alg».proof.Proof.RefRun
import proofs.«148496_j54855322304748_1_alg».proof.Proof.RefValue
import proofs.«148496_j54855322304748_1_alg».proof.Proof.KernelRun
import proofs.«148496_j54855322304748_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing: the idealized kernel is the kernel's own text read over the extended reals. -/
theorem preserves : Cert.preserves_Kernel_KernelIdeal := trivial

/-- The kernel program's run: the result buffer ends at the network of the arguments, the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v69)
        = Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = (m ((c.tc : Thread Cert.KernelIdeal.nD Cert.KernelIdeal.τ).loc Cert.KernelIdeal.main_arg0))
      ∧ r.2.mem ((c.tc : Thread Cert.KernelIdeal.nD Cert.KernelIdeal.τ).loc Cert.KernelIdeal.main_arg1) = (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg2) = (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_arg3) = (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg4) = (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_arg5) = (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg6) = (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_arg7) = (m ((c.tc : Thread Cert.KernelIdeal.nD Cert.KernelIdeal.τ).loc Cert.KernelIdeal.main_arg7))) :=
  (θ_run Cert.KernelIdeal.defs _ _).mono (fun r h c => ⟨(h c).1.trans (Cert.KernelIdeal.Chain.result m ρ c), (h c).2⟩)
    (Cert.KernelIdeal.Named.run_result (F := Ideal) m ρ)

/-- Both programs end with the network of the same arguments in their result buffers. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [Cert.ReferenceIdeal.RefValue.result_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
